-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1x3072 : Shape := ⟨2, ![1, 3072]⟩
abbrev S8192x1024 : Shape := ⟨2, ![8192, 1024]⟩
abbrev S1024x1024 : Shape := ⟨2, ![1024, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S3072x1024, .bf16⟩
  | .hbm, ⟨4, _⟩ => ⟨S1x3072, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S4x2048x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x512x1024, .f32⟩
  | .local _ .vmem, ⟨17, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  shapeCasts_S3072_S1x3072 : S3072.ShapeCasts S1x3072
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S1024x1024_0_0 : ∀ a, (![0, 0] : Fin 2 → Nat) a + S1024x1024.size a ≤ S3072x1024.size a
  inb_S1x3072_S1x1024_0_0 : ∀ a, (![0, 0] : Fin 2 → Nat) a + S1x1024.size a ≤ S1x3072.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S3072x1024_S1024x1024_1024_0 : ∀ a, (![1024, 0] : Fin 2 → Nat) a + S1024x1024.size a ≤ S3072x1024.size a
  inb_S1x3072_S1x1024_0_1024 : ∀ a, (![0, 1024] : Fin 2 → Nat) a + S1x1024.size a ≤ S1x3072.size a
  inb_S3072x1024_S1024x1024_2048_0 : ∀ a, (![2048, 0] : Fin 2 → Nat) a + S1024x1024.size a ≤ S3072x1024.size a
  inb_S1x3072_S1x1024_0_2048 : ∀ a, (![0, 2048] : Fin 2 → Nat) a + S1x1024.size a ≤ S1x3072.size a
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x3x1024 : Shape := ⟨4, ![4, 2048, 3, 1024]⟩
abbrev S4x2048x1x1024 : Shape := ⟨4, ![4, 2048, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x3x1024, .f32⟩
  | .hbm, ⟨8, _⟩ => ⟨S4x2048x1x1024, .f32⟩
  | .hbm, ⟨9, _⟩ => ⟨S4x2048x1024, .f32⟩
  | .hbm, ⟨10, _⟩ => ⟨S4x2048x1x1024, .f32⟩
  | .hbm, ⟨11, _⟩ => ⟨S4x2048x1024, .f32⟩
  | .hbm, ⟨12, _⟩ => ⟨S4x2048x1x1024, .f32⟩
  | .hbm, ⟨13, _⟩ => ⟨S4x2048x1024, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x3x1024 : S4x2048x3072.ShapeCasts S4x2048x3x1024
  slices_S4x2048x3x1024_S4x2048x1x1024_0_0_0_0 : S4x2048x3x1024.Slices ![0, 0, 0, 0] S4x2048x1x1024
  shapeCasts_S4x2048x1x1024_S4x2048x1024 : S4x2048x1x1024.ShapeCasts S4x2048x1024
  slices_S4x2048x3x1024_S4x2048x1x1024_0_0_1_0 : S4x2048x3x1024.Slices ![0, 0, 1, 0] S4x2048x1x1024
  slices_S4x2048x3x1024_S4x2048x1x1024_0_0_2_0 : S4x2048x3x1024.Slices ![0, 0, 2, 0] S4x2048x1x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The idealized kernel's program, run from any memory: every weakly fair execution ends, nothing faulting, with the
  result array holding what the second region's write-backs leave in it, and the three argument arrays as launched.

  The program is four segments: a stretch of host operations (the weights' change of format, two reshapes), the
  projection region, a stretch of three reshapes, the attention region. The contents of every buffer that outlives a
  region are known at each boundary as a fold through the segments from the launch memory; at the last boundary the
  result buffer is one of the attention region's arrays, so it holds the fold of that region's write-backs over all
  sixteen grid points.
-/
import proofs.«100005_j60490319397308_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_boundary : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result buffer at the last boundary is the attention region's output array after all its write-backs. -/
theorem W4_result (c : Dev nD) :
    W4 m ρ c (Proc.devRef .tc main_v7) = (dat1 (V3 m ρ) c).arrAt 3 cfg1.N := W4_arr m ρ c 3

end Cert.KernelIdeal.KRun

end
-- ==== Proof.Spec.lean ====
/-
  Single-head self-attention over a packed projection, as one function of the three argument arrays, on the
  extended reals.

  The arguments are x : [4, 2048, 1024], W : [3072, 1024] and a bias : [3072]. Row (b, s) of x is projected onto the
  3072 rows of W and the bias added; the 3072 outputs are three consecutive parts of 1024, the queries, the keys and
  the values of position (b, s). The score of query position s against key position t (same b) is 2^-5 times the inner
  product of the query and the key over the 1024 features. A row of scores is turned into weights by subtracting its
  maximum, exponentiating and dividing by the row's sum; the result at (b, s, d) is the weighted sum over t of feature
  d of the value at position (b, t).

  The scores are also written the other way round — the factor 2^-5 on each query feature before the inner product
  instead of on the inner product — and the two are equal on the extended reals with no finiteness assumed: a
  nonnegative real factor distributes over a sum of extended reals whatever infinities the terms are.
-/
import Idealize.ShloMosaic.PureOps.Ideal.Laws
import Idealize.ShloMosaic.Lib.ValueIdx

noncomputable section

namespace Cert.AttnSpec

open Idealize.ShloMosaic Idealize.ShloMosaic.ValueIdx

abbrev SX : Shape := ⟨3, ![4, 2048, 1024]⟩
abbrev SW : Shape := ⟨2, ![3072, 1024]⟩
abbrev SB : Shape := ⟨1, ![3072]⟩

/-- The factor on the scores: the f32 pattern of 2^-5. -/
def scale : EReal := Ideal.ofBits .f32 0x3D000000#32

/-- The f32 pattern of -∞, which a row's maximum starts from. -/
def negInf : EReal := Ideal.ofBits .f32 0xFF800000#32

theorem scale_eq : scale = (((1 / 32 : ℝ)) : EReal) := by
  unfold scale
  simp [Ideal.ofBits, Ideal.ieee, -EReal.coe_mul]; norm_num

theorem scale_nonneg : 0 ≤ scale := by
  rw [scale_eq]; exact_mod_cast (by norm_num : (0 : ℝ) ≤ 1 / 32)

theorem scale_ne_top : scale ≠ ⊤ := by
  rw [scale_eq]; exact EReal.coe_ne_top _

/-- Feature `d` of part `j` (0 the queries, 1 the keys, 2 the values) among the 3072 projected outputs. -/
def part (j : Fin 3) (d : Fin 1024) : Fin 3072 := ⟨j.val * 1024 + d.val, by have := j.isLt; have := d.isLt; omega⟩

/-- One projected output: row (b, s) of x against row f of W, plus the bias at f. -/
def proj (x : FVec Ideal SX .f32) (W : FVec Ideal SW .f32) (bias : FVec Ideal SB .f32) (b : Fin 4) (s : Fin 2048)
    (f : Fin 3072) : EReal :=
  (∑ e : Fin 1024, x (ix3 b s e) * W (ix2 f e)) + bias (ix1 f)

/-- The score of query position s against key position t: 2^-5 times the inner product. -/
def score (x : FVec Ideal SX .f32) (W : FVec Ideal SW .f32) (bias : FVec Ideal SB .f32) (b : Fin 4) (s t : Fin 2048) : EReal :=
  scale * ∑ d : Fin 1024, proj x W bias b s (part 0 d) * proj x W bias b t (part 1 d)

/-- The same with the factor on each query feature. -/
def scoreFolded (x : FVec Ideal SX .f32) (W : FVec Ideal SW .f32) (bias : FVec Ideal SB .f32) (b : Fin 4) (s t : Fin 2048) : EReal :=
  ∑ d : Fin 1024, (proj x W bias b s (part 0 d) * scale) * proj x W bias b t (part 1 d)

/-- A nonnegative real factor goes inside a finite sum of extended reals. -/
theorem scale_mul_sum {ι : Type*} (S : Finset ι) (f : ι → EReal) : scale * ∑ i ∈ S, f i = ∑ i ∈ S, scale * f i := by
  classical
  induction S using Finset.induction_on with
  | empty => simp
  | insert a S ha ih =>
    rw [Finset.sum_insert ha, Finset.sum_insert ha, EReal.left_distrib_of_nonneg_of_ne_top scale_nonneg scale_ne_top, ih]

theorem scoreFolded_eq (x : FVec Ideal SX .f32) (W : FVec Ideal SW .f32) (bias : FVec Ideal SB .f32) (b : Fin 4) (s t : Fin 2048) :
    scoreFolded x W bias b s t = score x W bias b s t := by
  unfold scoreFolded score
  rw [scale_mul_sum]
  exact Finset.sum_congr rfl fun d _ => by rw [mul_comm (proj x W bias b s (part 0 d)) scale, mul_assoc]

/-- The maximum of a row of 2048 scores, from -∞. -/
def rowMax (r : Fin 2048 → EReal) : EReal := (Finset.univ : Finset (Fin 2048)).fold max negInf r

/-- The weights of a row of scores applied to a column: each score less the row's maximum, exponentiated, divided by the
    row's sum of those, times the column's entry; summed over the row. -/
def attendRow (r : Fin 2048 → EReal) (col : Fin 2048 → EReal) : EReal :=
  ∑ t : Fin 2048, Ideal.div (Ideal.exp (r t - rowMax r)) (∑ u : Fin 2048, Ideal.exp (r u - rowMax r)) * col t

/-- The attention of given scores over given values. -/
def attend (sc : Fin 4 → Fin 2048 → Fin 2048 → EReal) (v : Fin 4 → Fin 2048 → Fin 1024 → EReal) : FVec Ideal SX .f32 :=
  fun i => attendRow (sc (i 0) (i 1)) (fun t => v (i 0) t (i 2))

/-- The result: attention of the scores over the projected values. -/
def out (x : FVec Ideal SX .f32) (W : FVec Ideal SW .f32) (bias : FVec Ideal SB .f32) : FVec Ideal SX .f32 :=
  attend (score x W bias) (fun b t d => proj x W bias b t (part 2 d))

/-- The same from the scores with the factor folded into the queries. -/
theorem attend_scoreFolded (x : FVec Ideal SX .f32) (W : FVec Ideal SW .f32) (bias : FVec Ideal SB .f32) :
    attend (scoreFolded x W bias) (fun b t d => proj x W bias b t (part 2 d)) = out x W bias := by
  have e : scoreFolded x W bias = score x W bias := by
    funext b s t; exact scoreFolded_eq x W bias b s t
  unfold out; rw [e]

end Cert.AttnSpec

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«100005_j60490319397308_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibRowsRows.lean ====
/-
  A 2-D matrix product into the zero accumulator with the LAST axis of both operands contracted — [M, K] against [N, K],
  rows by rows — read at an output entry on the extended reals: entry (m, n) is the sum over k of lhs (m, k) * rhs (n, k).
  This is the product of a matrix with the transpose of another, as a projection x · Wᵀ or a score matrix q · kᵀ is
  written. The result is [M, N]. The dimension record is the one built from the literal axis lists; its well-formedness
  proof is a parameter. Over any extents M, K, N.
-/
import Idealize.ShloMosaic.PureOps.Ideal.Laws
import Idealize.ShloMosaic.Lib.ValueIdx
import proofs.«100005_j60490319397308_2_alg».proof.Proof.LibContractSum

namespace Cert.LibRowsRows

open Idealize.ShloMosaic Idealize.ShloMosaic.ValueIdx

variable {M K N : ℕ} {φ₁ φ₂ : FTy}

/-- Rows by rows: entry (m, n) is the sum over k of lhs (m, k) * rhs (n, k). -/
theorem rows_rows
    (wf : DotDims.WF (⟨2, ![M, K]⟩ : Shape) (⟨2, ![N, K]⟩ : Shape) (⟨2, ![M, N]⟩ : Shape)
      ([1] : List (Fin 2)) ([1] : List (Fin 2)) ([0] : List (Fin 2)) ([0] : List (Fin 2)) [] [])
    (prec : Option ContractPrecision) (lhs : FVec Ideal (⟨2, ![M, K]⟩ : Shape) φ₁) (rhs : FVec Ideal (⟨2, ![N, K]⟩ : Shape) φ₂)
    (m : Fin M) (n : Fin N) :
    FloatOps.matmul (⟨[1], [1], [0], [0], [], [], wf⟩ : DotDims (⟨2, ![M, K]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 m k) * rhs (ix2 n k) := by
  refine Cert.LibContractSum.matmul_zero_sum _ prec K rfl rfl lhs rhs (ix2 m n) (fun k => ix2 m k) (fun k => ix2 n k)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibRowsRows
-- ==== Proof.LibRowOps.lean ====
/-
  What a softmax over the rows of an [a, b] array is made of, read at an index on the extended reals:
    * a row statistic y : [a] kept as a column — cast to [a, 1], then broadcast to [a, b] — reads y at the row, at every
      column;
    * the maximum over a row, from the accumulator's value, is the fold of `max` over the row's b entries;
    * the sum over a row is the sum of the row's b entries.
  Over any extents a, b.
-/
import Idealize.ShloMosaic.PureOps.Ideal.Laws
import Idealize.ShloMosaic.Lib.ValueIdx
import Idealize.ShloMosaic.Lib.Pipeline.Value

namespace Cert.LibRowOps

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and broadcast over the row's entries reads the statistic at the row. -/
theorem column_apply {a b : ℕ} (y : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ y h) h' (ix2 p c) = y (ix1 p) :=
  (broadcastTo_a1_ab_apply _ h' p c).trans (shapeCast_a_a1_apply y h p 0)

/-- The reduced index `r` of an [a, b] → [a] reduction over the columns, with column `k` put back, is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A row's maximum: the fold of `max` from the accumulator's value over the row's entries. -/
theorem rowMax_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.maximumf.neutral φ hφ)
    (r : Fin a) :
    multiReduction .maximumf [1] (⟨1, ![a]⟩ : Shape) src acc h hφ hacc (ix1 r)
      = (Finset.univ : Finset (Fin b)).fold max (Ideal.ofBits φ acc) (fun t => src (ix2 r t)) := by
  rw [Ideal.multiReduction_maximumf_single src acc h hφ hacc (ix1 r)]
  have e : (src ∘ h.lift (ix1 r)) = fun t : Fin b => src (ix2 r t) := funext fun k => congrArg src (lift_row h r k)
  rw [e]; rfl

/-- A row's sum: the sum of the row's entries. -/
theorem rowSum_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] (⟨1, ![a]⟩ : Shape) src acc h hφ hacc (ix1 r) = ∑ t : Fin b, src (ix2 r t) := by
  rw [Ideal.multiReduction_add_single src acc h hφ hacc (ix1 r)]
  exact Finset.sum_congr rfl fun k _ => congrArg src (lift_row h r k)

end Cert.LibRowOps
-- ==== Proof.AttnPayload.lean ====
/-
  What the attention body computes, entry by entry, on the extended reals.

  The body holds one block of 512 query positions (scale already folded into the queries) and all 2048 key and value
  positions of the same batch element, each position a row of 1024 features. Entry (r, d) of what it stores is: the
  row of inner products of query r with every key; its maximum subtracted, exponentiated, divided by the row's sum —
  the weights of query r —; and the weighted sum of feature d over the 2048 value positions. The changes of float
  format in the body are the identity on the extended reals, and the two casts of a leading unit axis only rename
  indices.
-/
import proofs.«100005_j60490319397308_2_alg».proof.Proof.Gen.KernelIdeal.Skeleton
import proofs.«100005_j60490319397308_2_alg».proof.Proof.Spec
import proofs.«100005_j60490319397308_2_alg».proof.Proof.LibMatmul2D
import proofs.«100005_j60490319397308_2_alg».proof.Proof.LibRowsRows
import proofs.«100005_j60490319397308_2_alg».proof.Proof.LibRowOps
import Idealize.ShloMosaic.Lib.ValueLayout
import Idealize.ShloMosaic.Lib.Pipeline.Value

noncomputable section

namespace Cert.KernelIdeal.AttnPayload

open Cert.KernelIdeal Cert.KernelIdeal.Gen
open Idealize.ShloMosaic Idealize.ShloMosaic.ValueIdx

/-- The inner product of query row r of the block with key row t. -/
def blockScore (q : FVec Ideal S1x512x1024 .bf16) (k : FVec Ideal S1x2048x1024 .bf16) (r : Fin 512) (t : Fin 2048) : EReal :=
  ∑ e : Fin 1024, q (ix3 (0 : Fin 1) r e) * k (ix3 (0 : Fin 1) t e)

/-- The score matrix of the block: queries against keys, rows by rows. -/
theorem qk_apply (q2 : FVec Ideal S512x1024 .bf16) (k2 : FVec Ideal S2048x1024 .bf16) (r : Fin 512) (t : Fin 2048) :
    matmul dot_S512x1024_S2048x1024_S512x2048_1_1_0_0_n_n none q2 k2 (constant S512x2048 .f32 0x00000000#32) (ix2 r t)
      = ∑ e : Fin 1024, q2 (ix2 r e) * k2 (ix2 t e) :=
  Cert.LibRowsRows.rows_rows _ none q2 k2 r t

/-- The weights against the values: rows by columns. -/
theorem pv_apply (p : FVec Ideal S512x2048 .bf16) (v2 : FVec Ideal S2048x1024 .bf16) (r : Fin 512) (d : Fin 1024) :
    matmul dot_S512x2048_S2048x1024_S512x1024_1_0_0_1_n_n none p v2 (constant S512x1024 .f32 0x00000000#32) (ix2 r d)
      = ∑ t : Fin 2048, p (ix2 r t) * v2 (ix2 t d) :=
  Cert.LibMatmul2D.rows_cols _ none p v2 r d

/-- Each row's maximum, kept as a column and broadcast back over the row. -/
abbrev colMax (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- Each row's sum, kept as a column and broadcast back over the row. -/
abbrev colSum (s : FVec Ideal S512x2048 .f32) : FVec Ideal S512x2048 .f32 :=
  broadcastTo S512x2048 (shapeCast S512x1 (multiReduction .add [1] S512 s 0x00000000#32 reduces_S512x2048_S512 (.inl rfl) rfl)
    shapeCasts_S512_S512x1) broadcasts_S512x1_S512x2048

theorem colMax_apply (s : FVec Ideal S512x2048 .f32) (r : Fin 512) (t : Fin 2048) :
    colMax s (ix2 r t) = Cert.AttnSpec.rowMax (fun u => s (ix2 r u)) :=
  (Cert.LibRowOps.column_apply _ shapeCasts_S512_S512x1 broadcasts_S512x1_S512x2048 r t).trans
    (Cert.LibRowOps.rowMax_apply s 0xFF800000#32 reduces_S512x2048_S512 (.inl rfl) rfl r)

theorem colSum_apply (s : FVec Ideal S512x2048 .f32) (r : Fin 512) (t : Fin 2048) :
    colSum s (ix2 r t) = ∑ u : Fin 2048, s (ix2 r u) :=
  (Cert.LibRowOps.column_apply _ shapeCasts_S512_S512x1 broadcasts_S512x1_S512x2048 r t).trans
    (Cert.LibRowOps.rowSum_apply s 0x00000000#32 reduces_S512x2048_S512 (.inl rfl) rfl r)

/-- The softmax weights of a score matrix, at (r, t). -/
theorem weights_apply (s : FVec Ideal S512x2048 .f32) (r : Fin 512) (t : Fin 2048) :
    divf (exp (subf s (colMax s))) (colSum (exp (subf s (colMax s)))) (ix2 r t)
      = Ideal.div (Ideal.exp (s (ix2 r t) - Cert.AttnSpec.rowMax (fun u => s (ix2 r u))))
          (∑ u : Fin 2048, Ideal.exp (s (ix2 r u) - Cert.AttnSpec.rowMax (fun u' => s (ix2 r u')))) := by
  show Ideal.div (Ideal.exp (s (ix2 r t) - colMax s (ix2 r t))) (colSum (exp (subf s (colMax s))) (ix2 r t)) = _
  rw [colMax_apply, colSum_apply]
  refine congrArg _ (Finset.sum_congr rfl fun u _ => ?_)
  show Ideal.exp (s (ix2 r u) - colMax s (ix2 r u)) = _
  rw [colMax_apply]

/-- THE BODY'S STORED BLOCK at (u, r, d): the weights of query r over the value column d. -/
theorem attn_payload_apply (q : FVec Ideal S1x512x1024 .bf16) (k v : FVec Ideal S1x2048x1024 .bf16)
    (u : Fin 1) (r : Fin 512) (d : Fin 1024) :
    k1_pay1 (F := Ideal) q k v (ix3 u r d)
      = Cert.AttnSpec.attendRow (blockScore q k r) (fun t => v (ix3 (0 : Fin 1) t d)) := by
  unfold k1_pay1
  dsimp only
  refine (shapeCast_ab_1ab_apply _ shapeCasts_S512x1024_S1x512x1024 u r d).trans ?_
  refine (pv_apply _ _ r d).trans ?_
  unfold Cert.AttnSpec.attendRow
  refine Finset.sum_congr rfl fun t _ => ?_
  refine congrArg₂ (· * ·) ?_ (shapeCast_1ab_ab_apply v shapeCasts_S1x2048x1024_S2048x1024 t d)
  refine (weights_apply _ r t).trans ?_
  have hs : ∀ t' : Fin 2048,
      matmul dot_S512x1024_S2048x1024_S512x2048_1_1_0_0_n_n none (shapeCast S512x1024 q shapeCasts_S1x512x1024_S512x1024)
        (shapeCast S2048x1024 k shapeCasts_S1x2048x1024_S2048x1024) (constant S512x2048 .f32 0x00000000#32) (ix2 r t')
        = blockScore q k r t' := fun t' =>
    (qk_apply _ _ r t').trans (Finset.sum_congr rfl fun e _ => by
      rw [shapeCast_1ab_ab_apply q shapeCasts_S1x512x1024_S512x1024 r e,
        shapeCast_1ab_ab_apply k shapeCasts_S1x2048x1024_S2048x1024 t' e])
  simp only [hs]

end Cert.KernelIdeal.AttnPayload

end
-- ==== Proof.AttnRegion.lean ====
/-
  The attention region's result array after all sixteen grid points, as one function of the three arrays the region
  finds — queries, keys, values, each [4, 2048, 1024] — on the extended reals.

  Grid point (b, j) takes the 512 query positions 512 j … 512 j + 511 of batch element b and all 2048 key and value
  positions of b, and writes back block (b, j) of the result. What it writes at (b, s, d) is the softmax over t of the
  inner products of query (b, s) with keys (b, t), applied to feature d of the values (b, t): the same function of the
  whole arrays at every point, so the result array is that function, the sixteen blocks covering it.
-/
import proofs.«100005_j60490319397308_2_alg».proof.Proof.Gen.KernelIdeal.Frame
import proofs.«100005_j60490319397308_2_alg».proof.Proof.AttnPayload
import Idealize.ShloMosaic.Lib.Pipeline.Value

set_option maxRecDepth 16384

noncomputable section

namespace Cert.KernelIdeal.AttnRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Attention of queries Q over keys K and values Vv, with no factor on the scores (the queries carry it). -/
def G (Q K Vv : S4x2048x1024.Idx → Elt Ideal .bf16) : S4x2048x1024.Idx → Elt Ideal .f32 :=
  Cert.AttnSpec.attend (fun b s t => ∑ e : Fin 1024, Q (ix3 b s e) * K (ix3 b t e)) (fun b t d => Vv (ix3 b t d))

theorem hz3 : (![0, 0, 0] : Fin 3 → Nat) = fun _ => 0 := funext fun a => by fin_cases a <;> rfl

/-- One stored entry, from blocks that are the stated rows of whole arrays: the block of queries is rows
    s0 … s0 + 511 of batch element b, the blocks of keys and values are all of batch element b. -/
theorem entry_eq (Q K Vv : S4x2048x1024.Idx → Elt Ideal .bf16) (qb : FVec Ideal S1x512x1024 .bf16)
    (kb vb : FVec Ideal S1x2048x1024 .bf16) (b : Fin 4) (row : Fin 512 → Fin 2048)
    (hq : ∀ r e, qb (ix3 (0 : Fin 1) r e) = Q (ix3 b (row r) e))
    (hk : ∀ t e, kb (ix3 (0 : Fin 1) t e) = K (ix3 b t e))
    (hv : ∀ t d, vb (ix3 (0 : Fin 1) t d) = Vv (ix3 b t d)) (u : Fin 1) (r : Fin 512) (d : Fin 1024) :
    k1_pay1 (F := Ideal) qb kb vb (ix3 u r d) = G Q K Vv (ix3 b (row r) d) := by
  rw [Cert.KernelIdeal.AttnPayload.attn_payload_apply]
  unfold G Cert.AttnSpec.attend
  have e1 : Cert.KernelIdeal.AttnPayload.blockScore qb kb r = fun t => ∑ e : Fin 1024, Q (ix3 b (row r) e) * K (ix3 b t e) := by
    funext t; unfold Cert.KernelIdeal.AttnPayload.blockScore
    exact Finset.sum_congr rfl fun e _ => by rw [hq, hk]
  have e2 : (fun t => vb (ix3 (0 : Fin 1) t d)) = fun t => Vv (ix3 b t d) := funext fun t => hv t d
  rw [e1, e2]

/-- The printed index maps over the grid: the query window moves with the output window, the key and value windows
    move with its batch coordinate only, and the output's block coordinates stay in range. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 :=
  (by decide +kernel : ∀ t : Fin grid1.N, _)

/-- Every block of the result is some point's. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

variable (V : (c : Dev nD) → (b : Ref sig .tc) → Buf (Elt Ideal) ((c : Thread nD τ).loc b))

/-- WHAT POINT t WRITES BACK is block t of G of the region's three input arrays. -/
theorem flushed_eq (c : Dev nD) (t : Fin cfg1.N) :
    (dat1 V c).flushed 3 t = ((cfg1.win 3).blk t).view.read (Elt Ideal) (G (V c main_v4) (V c main_v5) (V c main_v6)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  obtain ⟨e0, e1, e2, e3, e4, e5, e6, e7, e8, e9, e10, e11⟩ := idx_facts t
  funext j
  obtain ⟨u, r, d, rfl⟩ : ∃ (u : Fin 1) (r : Fin 512) (d : Fin 1024), j = ix3 u r d := ⟨j 0, j 1, j 2, eq_ix3 j⟩
  have hu : u.val = 0 := by omega
  have hr : r.val < 512 := r.isLt
  have hd : d.val < 1024 := d.isLt
  let b : Fin 4 := ⟨win1_3.index t (0 : Fin 3), by omega⟩
  let row : Fin 512 → Fin 2048 := fun r' => ⟨win1_3.index t (1 : Fin 3) * 512 + r'.val, by have := r'.isLt; omega⟩
  refine (entry_eq (V c main_v4) (V c main_v5) (V c main_v6) _ _ _ b row ?_ ?_ ?_ u r d).trans ?_
  · intro r' e'
    show V c main_v4 (((cfg1.win 0).blk t).view.emb (ix3 (0 : Fin 1) r' e')) = V c main_v4 (ix3 b (row r') e')
    refine congrArg _ (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * r'.val = win1_3.index t (1 : Fin 3) * 512 + r'.val; omega
    | ⟨2, _⟩ => show win1_0.index t (2 : Fin 3) * 1024 + 1 * e'.val = e'.val; omega
  · intro t' e'
    show V c main_v5 (((cfg1.win 1).blk t).view.emb (ix3 (0 : Fin 1) t' e')) = V c main_v5 (ix3 b t' e')
    refine congrArg _ (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * t'.val = t'.val; omega
    | ⟨2, _⟩ => show win1_1.index t (2 : Fin 3) * 1024 + 1 * e'.val = e'.val; omega
  · intro t' d'
    show V c main_v6 (((cfg1.win 2).blk t).view.emb (ix3 (0 : Fin 1) t' d')) = V c main_v6 (ix3 b t' d')
    refine congrArg _ (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * t'.val = t'.val; omega
    | ⟨2, _⟩ => show win1_2.index t (2 : Fin 3) * 1024 + 1 * d'.val = d'.val; omega
  · show G (V c main_v4) (V c main_v5) (V c main_v6) (ix3 b (row r) d)
      = G (V c main_v4) (V c main_v5) (V c main_v6) (((cfg1.win 3).blk t).view.emb (ix3 u r d))
    refine congrArg _ (funext fun a => Fin.ext ?_)
    match a with
    | ⟨0, _⟩ => show win1_3.index t (0 : Fin 3) = win1_3.index t (0 : Fin 3) * 1 + 1 * u.val; omega
    | ⟨1, _⟩ => show win1_3.index t (1 : Fin 3) * 512 + r.val = win1_3.index t (1 : Fin 3) * 512 + 1 * r.val; omega
    | ⟨2, _⟩ => show d.val = win1_3.index t (2 : Fin 3) * 1024 + 1 * d.val; omega

/-- An index of the result is in point t's block iff each coordinate is in the block's range on its axis. -/
theorem mem_blk (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v7).slice (win1_3.rect t)).set ↔ _
  rw [View.set_slice_whole, Rect.mem_set_unit]
  exact Iff.rfl

/-- The sixteen blocks cover the result: entry (b, s, d) is in the block of point (b, s / 512). -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, by omega⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE RESULT ARRAY after the region: G of the three arrays the region finds. -/
theorem final (c : Dev nD) :
    (dat1 V c).arrAt 3 cfg1.N = G (V c main_v4) (V c main_v5) (V c main_v6) :=
  (dat1 V c).arrAt_eq_of_cover 3 (G (V c main_v4) (V c main_v5) (V c main_v6)) (fun t _ => flushed_eq V c t) cover

end Cert.KernelIdeal.AttnRegion

end
-- ==== Proof.ProjPayload.lean ====
/-
  What the projection body computes, entry by entry, on the extended reals.

  The body holds one block of 1024 rows of x (each row 1024 inputs), and from the packed weights and bias one part at a
  time: 1024 rows of W and the matching 1024 bias entries. Entry (r, d) of what it stores for a part is the inner
  product of row r of the block with row d of that part of W, plus the part's bias at d — and, for the queries only,
  that sum times 2^-5. The changes of float format are the identity on the extended reals; the casts between equal
  shapes are the identity; the bias row is repeated down the 1024 rows.
-/
import proofs.«100005_j60490319397308_2_alg».proof.Proof.Gen.KernelIdeal.Skeleton
import proofs.«100005_j60490319397308_2_alg».proof.Proof.Spec
import proofs.«100005_j60490319397308_2_alg».proof.Proof.LibRowsRows
import Idealize.ShloMosaic.Lib.ValueLayout
import Idealize.ShloMosaic.Lib.Pipeline.Value

noncomputable section

namespace Cert.KernelIdeal.ProjPayload

open Cert.KernelIdeal Cert.KernelIdeal.Gen
open Idealize.ShloMosaic Idealize.ShloMosaic.ValueIdx

/-- Row r of the block against row d of a part of the weights, plus that part's bias at d. -/
def entry (xb : FVec Ideal S1024x1024 .f32) (wp : FVec Ideal S1024x1024 .bf16) (bp : FVec Ideal S1x1024 .f32)
    (r d : Fin 1024) : EReal :=
  (∑ e : Fin 1024, xb (ix2 r e) * wp (ix2 d e)) + bp (ix2 (0 : Fin 1) d)

/-- The block against a part of the weights, rows by rows. -/
theorem xw_apply (x2 : FVec Ideal S1024x1024 .bf16) (w2 : FVec Ideal S1024x1024 .bf16) (r d : Fin 1024) :
    matmul dot_S1024x1024_S1024x1024_S1024x1024_1_1_0_0_n_n none x2 w2 (constant S1024x1024 .f32 0x00000000#32) (ix2 r d)
      = ∑ e : Fin 1024, x2 (ix2 r e) * w2 (ix2 d e) :=
  Cert.LibRowsRows.rows_rows _ none x2 w2 r d

/-- The product plus the repeated bias row, before any scaling: the common part of the three payloads. -/
theorem sum_apply (xb : FVec Ideal S1024x1024 .f32) (wp : FVec Ideal S1024x1024 .bf16) (bp : FVec Ideal S1x1024 .f32)
    (r d : Fin 1024) :
    addf (matmul dot_S1024x1024_S1024x1024_S1024x1024_1_1_0_0_n_n none (k0_pay1 (F := Ideal) xb)
        (shapeCast S1024x1024 wp shapeCasts_S1024x1024_S1024x1024) (constant S1024x1024 .f32 0x00000000#32))
      (broadcastTo S1024x1024 (shapeCast S1x1024 bp shapeCasts_S1x1024_S1x1024) broadcasts_S1x1024_S1024x1024) (ix2 r d)
      = entry xb wp bp r d := by
  rw [shapeCast_self, shapeCast_self]
  unfold k0_pay1
  dsimp only
  rw [shapeCast_self]
  rw [addf_apply, xw_apply, broadcastTo_1b_ab_apply]
  rfl

/-- The keys' payload at (r, d). -/
theorem k_payload_apply (xb : FVec Ideal S1024x1024 .f32) (wp : FVec Ideal S1024x1024 .bf16) (bp : FVec Ideal S1x1024 .f32)
    (r d : Fin 1024) : k0_pay3 (F := Ideal) xb wp bp (ix2 r d) = entry xb wp bp r d := by
  unfold k0_pay3
  exact sum_apply xb wp bp r d

/-- The values' payload at (r, d). -/
theorem v_payload_apply (xb : FVec Ideal S1024x1024 .f32) (wp : FVec Ideal S1024x1024 .bf16) (bp : FVec Ideal S1x1024 .f32)
    (r d : Fin 1024) : k0_pay4 (F := Ideal) xb wp bp (ix2 r d) = entry xb wp bp r d := by
  unfold k0_pay4
  exact sum_apply xb wp bp r d

/-- The queries' payload at (r, d): the same sum times 2^-5. -/
theorem q_payload_apply (xb : FVec Ideal S1024x1024 .f32) (wp : FVec Ideal S1024x1024 .bf16) (bp : FVec Ideal S1x1024 .f32)
    (r d : Fin 1024) : k0_pay2 (F := Ideal) xb wp bp (ix2 r d) = entry xb wp bp r d * Cert.AttnSpec.scale := by
  unfold k0_pay2
  exact congrArg (· * Cert.AttnSpec.scale) (sum_apply xb wp bp r d)

end Cert.KernelIdeal.ProjPayload

end
-- ==== Proof.ProjSpec.lean ====
/-
  The projection of the flattened rows, one part at a time, as a function of the arrays the projection region finds.

  The region sees x flattened to 8192 rows of 1024 inputs, the packed weights (3072 rows of 1024), and the packed bias as
  one row of 3072. The part at offset `off` (0 the queries, 1024 the keys, 2048 the values) at entry (row, d) is the
  inner product of the row with row off + d of the weights, plus the bias at off + d.
-/
import Idealize.ShloMosaic.PureOps.Ideal.Laws
import Idealize.ShloMosaic.Lib.ValueIdx

noncomputable section

namespace Cert.ProjSpec

open Idealize.ShloMosaic Idealize.ShloMosaic.ValueIdx

abbrev SR : Shape := ⟨2, ![8192, 1024]⟩
abbrev SW : Shape := ⟨2, ![3072, 1024]⟩
abbrev SB2 : Shape := ⟨2, ![1, 3072]⟩

/-- Column `d` of the part at offset `off` among the 3072 packed outputs. -/
def col (off : ℕ) (hoff : off + 1024 ≤ 3072) (d : Fin 1024) : Fin 3072 := ⟨off + d.val, by have := d.isLt; omega⟩

/-- The part at offset `off` of the projection, at (row, d). -/
def projPart (off : ℕ) (hoff : off + 1024 ≤ 3072) (X2 : SR.Idx → EReal) (Wb : SW.Idx → EReal) (B2 : SB2.Idx → EReal) :
    SR.Idx → EReal :=
  fun i => (∑ e : Fin 1024, X2 (ix2 (i 0) e) * Wb (ix2 (col off hoff (i 1)) e)) + B2 (ix2 (0 : Fin 1) (col off hoff (i 1)))

end Cert.ProjSpec

end
-- ==== Proof.ProjRegion.lean ====
/-
  The projection region's three result arrays after all eight grid points, each as one function of the three arrays
  the region finds — x flattened to [8192, 1024], the packed weights [3072, 1024], the packed bias as a row [1, 3072] —
  on the extended reals.

  Grid point i takes rows 1024 i … 1024 i + 1023 of the flattened x and the whole of the weights and bias, and writes
  back block i of each of the three results: at (row, d) the inner product of the row with row off + d of the weights
  plus the bias at off + d, where off is 0 for the queries, 1024 for the keys and 2048 for the values; the queries are
  further multiplied by 2^-5. Each is the same function of the whole arrays at every point, and the eight blocks of
  1024 rows cover the 8192 rows.
-/
import proofs.«100005_j60490319397308_2_alg».proof.Proof.Gen.KernelIdeal.Frame
import proofs.«100005_j60490319397308_2_alg».proof.Proof.ProjPayload
import proofs.«100005_j60490319397308_2_alg».proof.Proof.ProjSpec
import Idealize.ShloMosaic.Lib.Pipeline.Value

set_option maxRecDepth 16384

noncomputable section

namespace Cert.KernelIdeal.ProjRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The queries: the part at offset 0, times 2^-5. -/
def Gq (X2 : S8192x1024.Idx → Elt Ideal .f32) (Wb : S3072x1024.Idx → Elt Ideal .bf16) (B2 : S1x3072.Idx → Elt Ideal .f32) :
    S8192x1024.Idx → Elt Ideal .bf16 :=
  fun i => Cert.ProjSpec.projPart 0 (by omega) X2 Wb B2 i * Cert.AttnSpec.scale

/-- The keys: the part at offset 1024. -/
def Gk (X2 : S8192x1024.Idx → Elt Ideal .f32) (Wb : S3072x1024.Idx → Elt Ideal .bf16) (B2 : S1x3072.Idx → Elt Ideal .f32) :
    S8192x1024.Idx → Elt Ideal .bf16 :=
  Cert.ProjSpec.projPart 1024 (by omega) X2 Wb B2

/-- The values: the part at offset 2048. -/
def Gv (X2 : S8192x1024.Idx → Elt Ideal .f32) (Wb : S3072x1024.Idx → Elt Ideal .bf16) (B2 : S1x3072.Idx → Elt Ideal .f32) :
    S8192x1024.Idx → Elt Ideal .bf16 :=
  Cert.ProjSpec.projPart 2048 (by omega) X2 Wb B2

theorem hz2 : (![0, 0] : Fin 2 → Nat) = fun _ => 0 := funext fun a => by fin_cases a <;> rfl

/-- One stored entry before any scaling, from blocks that are the stated rows of whole arrays: the block of x is the
    rows `row r` of the flattened x, the slab of weights is rows off … off + 1023, the slab of bias entries likewise. -/
theorem entry_eq (off : ℕ) (hoff : off + 1024 ≤ 3072) (X2 : S8192x1024.Idx → Elt Ideal .f32)
    (Wb : S3072x1024.Idx → Elt Ideal .bf16) (B2 : S1x3072.Idx → Elt Ideal .f32)
    (xb : FVec Ideal S1024x1024 .f32) (wp : FVec Ideal S1024x1024 .bf16) (bp : FVec Ideal S1x1024 .f32) (row : Fin 1024 → Fin 8192)
    (hx : ∀ r e, xb (ix2 r e) = X2 (ix2 (row r) e))
    (hw : ∀ d e, wp (ix2 d e) = Wb (ix2 (Cert.ProjSpec.col off hoff d) e))
    (hb : ∀ d, bp (ix2 (0 : Fin 1) d) = B2 (ix2 (0 : Fin 1) (Cert.ProjSpec.col off hoff d))) (r d : Fin 1024) :
    Cert.KernelIdeal.ProjPayload.entry xb wp bp r d = Cert.ProjSpec.projPart off hoff X2 Wb B2 (ix2 (row r) d) := by
  unfold Cert.KernelIdeal.ProjPayload.entry Cert.ProjSpec.projPart
  rw [hb]
  exact congrArg (· + _) (Finset.sum_congr rfl fun e _ => by rw [hx, hw])

/-- The printed index maps over the grid: the block of x moves with each output block, the weights and the bias stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ (win0_4.index t = win0_3.index t ∧ win0_5.index t = win0_3.index t)
    ∧ win0_3.index t (1 : Fin 2) = 0 ∧ win0_3.index t (0 : Fin 2) ≤ 7 :=
  (by decide +kernel : ∀ t : Fin grid0.N, _)

/-- Every block of 1024 rows is some point's, in each output window. -/
theorem idx_onto : ∀ (q0 : Fin 8), ∃ t : Fin cfg0.N, win0_3.index t = ![q0.val, 0] ∧ win0_4.index t = ![q0.val, 0] ∧ win0_5.index t = ![q0.val, 0] :=
  (by decide +kernel : ∀ (q0 : Fin 8), ∃ t : Fin grid0.N, win0_3.index t = ![q0.val, 0] ∧ win0_4.index t = ![q0.val, 0] ∧ win0_5.index t = ![q0.val, 0])

variable (V : (c : Dev nD) → (b : Ref sig .tc) → Buf (Elt Ideal) ((c : Thread nD τ).loc b))

/-- WHAT POINT t WRITES BACK through window 3 is block t of the q part of the projection. -/
theorem flushed_eq3 (c : Dev nD) (t : Fin cfg0.N) :
    (dat0 V c).flushed 3 t = ((cfg0.win 3).blk t).view.read (Elt Ideal) (Gq (V c main_v2) (V c main_v0) (V c main_v1)) := by
  show (cfg0.win 3).cut (grid0.coords t) ((dat0 V c).after 3 t) = _
  rw [after0_3]
  unfold out0_3
  rw [View.canon_unit_zero hz2]
  simp only [View.ld_unit_zero (S := S1024x1024) hz2]
  obtain ⟨e0, e1, e2, e3, e4, e5, e6, e7, e8⟩ := idx_facts t
  have e40 : win0_4.index t (0 : Fin 2) = win0_3.index t (0 : Fin 2) := congrFun e6.1 0
  have e41 : win0_4.index t (1 : Fin 2) = win0_3.index t (1 : Fin 2) := congrFun e6.1 1
  have e50 : win0_5.index t (0 : Fin 2) = win0_3.index t (0 : Fin 2) := congrFun e6.2 0
  have e51 : win0_5.index t (1 : Fin 2) = win0_3.index t (1 : Fin 2) := congrFun e6.2 1
  funext j
  obtain ⟨r, d, rfl⟩ : ∃ (r : Fin 1024) (d : Fin 1024), j = ix2 r d := ⟨j 0, j 1, eq_ix2 j⟩
  have hr : r.val < 1024 := r.isLt
  have hd : d.val < 1024 := d.isLt
  let row : Fin 1024 → Fin 8192 := fun r' => ⟨win0_3.index t (0 : Fin 2) * 1024 + r'.val, by have := r'.isLt; omega⟩
  refine (Cert.KernelIdeal.ProjPayload.q_payload_apply _ _ _ r d).trans ?_
  have hE := entry_eq 0 (by omega) (V c main_v2) (V c main_v0) (V c main_v1) (iblk0 V c 0 t)
    (View.ld (iblk0 V c 1 t) r0_1) (View.ld (iblk0 V c 2 t) r0_2) row ?_ ?_ ?_ r d
  · refine (congrArg (· * Cert.AttnSpec.scale) hE).trans ?_
    show Gq (V c main_v2) (V c main_v0) (V c main_v1) (ix2 (row r) d)
      = Gq (V c main_v2) (V c main_v0) (V c main_v1) (((cfg0.win 3).blk t).view.emb (ix2 r d))
    refine congrArg _ (funext fun a => Fin.ext ?_)
    match a with
    | ⟨0, _⟩ => show win0_3.index t (0 : Fin 2) * 1024 + r.val = win0_3.index t (0 : Fin 2) * 1024 + 1 * r.val; omega
    | ⟨1, _⟩ => show d.val = win0_3.index t (1 : Fin 2) * 1024 + 1 * d.val; omega
  · intro r' e'
    show V c main_v2 (((cfg0.win 0).blk t).view.emb (ix2 r' e')) = V c main_v2 (ix2 (row r') e')
    refine congrArg _ (funext fun a => Fin.ext ?_)
    match a with
    | ⟨0, _⟩ => show win0_0.index t (0 : Fin 2) * 1024 + 1 * r'.val = win0_3.index t (0 : Fin 2) * 1024 + r'.val; omega
    | ⟨1, _⟩ => show win0_0.index t (1 : Fin 2) * 1024 + 1 * e'.val = e'.val; omega
  · intro d' e'
    show V c main_v0 (((cfg0.win 1).blk t).view.emb (r0_1.emb (ix2 d' e'))) = V c main_v0 (ix2 (Cert.ProjSpec.col 0 (by omega) d') e')
    refine congrArg _ (funext fun a => Fin.ext ?_)
    match a with
    | ⟨0, _⟩ => show win0_1.index t (0 : Fin 2) * 3072 + 1 * (0 + 1 * d'.val) = 0 + d'.val; omega
    | ⟨1, _⟩ => show win0_1.index t (1 : Fin 2) * 1024 + 1 * (0 + 1 * e'.val) = e'.val; omega
  · intro d'
    show V c main_v1 (((cfg0.win 2).blk t).view.emb (r0_2.emb (ix2 (0 : Fin 1) d'))) = V c main_v1 (ix2 (0 : Fin 1) (Cert.ProjSpec.col 0 (by omega) d'))
    refine congrArg _ (funext fun a => Fin.ext ?_)
    match a with
    | ⟨0, _⟩ => show win0_2.index t (0 : Fin 2) * 1 + 1 * (0 + 1 * 0) = 0; omega
    | ⟨1, _⟩ => show win0_2.index t (1 : Fin 2) * 3072 + 1 * (0 + 1 * d'.val) = 0 + d'.val; omega

/-- An index of the array is in point t's block of window 3 iff each coordinate is in the block's range. -/
theorem mem_blk3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3_0).slice (win0_3.rect t)).set ↔ _
  rw [View.set_slice_whole, Rect.mem_set_unit]
  exact Iff.rfl

/-- The eight blocks of window 3 cover its array: row s is in the block of point s / 1024. -/
theorem cover3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, h3, h4, h5⟩ := idx_onto ⟨(i 0).val / 1024, by omega⟩
  have ht := h3
  have q0 : win0_3.index t (0 : Fin 2) = (i 0).val / 1024 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE Q ARRAY after the region. -/
theorem final3 (c : Dev nD) :
    (dat0 V c).arrAt 3 cfg0.N = Gq (V c main_v2) (V c main_v0) (V c main_v1) :=
  (dat0 V c).arrAt_eq_of_cover 3 (Gq (V c main_v2) (V c main_v0) (V c main_v1)) (fun t _ => flushed_eq3 V c t) cover3

/-- WHAT POINT t WRITES BACK through window 4 is block t of the k part of the projection. -/
theorem flushed_eq4 (c : Dev nD) (t : Fin cfg0.N) :
    (dat0 V c).flushed 4 t = ((cfg0.win 4).blk t).view.read (Elt Ideal) (Gk (V c main_v2) (V c main_v0) (V c main_v1)) := by
  show (cfg0.win 4).cut (grid0.coords t) ((dat0 V c).after 4 t) = _
  rw [after0_4]
  unfold out0_4
  rw [View.canon_unit_zero hz2]
  simp only [View.ld_unit_zero (S := S1024x1024) hz2]
  obtain ⟨e0, e1, e2, e3, e4, e5, e6, e7, e8⟩ := idx_facts t
  have e40 : win0_4.index t (0 : Fin 2) = win0_3.index t (0 : Fin 2) := congrFun e6.1 0
  have e41 : win0_4.index t (1 : Fin 2) = win0_3.index t (1 : Fin 2) := congrFun e6.1 1
  have e50 : win0_5.index t (0 : Fin 2) = win0_3.index t (0 : Fin 2) := congrFun e6.2 0
  have e51 : win0_5.index t (1 : Fin 2) = win0_3.index t (1 : Fin 2) := congrFun e6.2 1
  funext j
  obtain ⟨r, d, rfl⟩ : ∃ (r : Fin 1024) (d : Fin 1024), j = ix2 r d := ⟨j 0, j 1, eq_ix2 j⟩
  have hr : r.val < 1024 := r.isLt
  have hd : d.val < 1024 := d.isLt
  let row : Fin 1024 → Fin 8192 := fun r' => ⟨win0_4.index t (0 : Fin 2) * 1024 + r'.val, by have := r'.isLt; omega⟩
  refine (Cert.KernelIdeal.ProjPayload.k_payload_apply _ _ _ r d).trans ?_
  have hE := entry_eq 1024 (by omega) (V c main_v2) (V c main_v0) (V c main_v1) (iblk0 V c 0 t)
    (View.ld (iblk0 V c 1 t) r0_3) (View.ld (iblk0 V c 2 t) r0_4) row ?_ ?_ ?_ r d
  · refine hE.trans ?_
    show Gk (V c main_v2) (V c main_v0) (V c main_v1) (ix2 (row r) d)
      = Gk (V c main_v2) (V c main_v0) (V c main_v1) (((cfg0.win 4).blk t).view.emb (ix2 r d))
    refine congrArg _ (funext fun a => Fin.ext ?_)
    match a with
    | ⟨0, _⟩ => show win0_4.index t (0 : Fin 2) * 1024 + r.val = win0_4.index t (0 : Fin 2) * 1024 + 1 * r.val; omega
    | ⟨1, _⟩ => show d.val = win0_4.index t (1 : Fin 2) * 1024 + 1 * d.val; omega
  · intro r' e'
    show V c main_v2 (((cfg0.win 0).blk t).view.emb (ix2 r' e')) = V c main_v2 (ix2 (row r') e')
    refine congrArg _ (funext fun a => Fin.ext ?_)
    match a with
    | ⟨0, _⟩ => show win0_0.index t (0 : Fin 2) * 1024 + 1 * r'.val = win0_4.index t (0 : Fin 2) * 1024 + r'.val; omega
    | ⟨1, _⟩ => show win0_0.index t (1 : Fin 2) * 1024 + 1 * e'.val = e'.val; omega
  · intro d' e'
    show V c main_v0 (((cfg0.win 1).blk t).view.emb (r0_3.emb (ix2 d' e'))) = V c main_v0 (ix2 (Cert.ProjSpec.col 1024 (by omega) d') e')
    refine congrArg _ (funext fun a => Fin.ext ?_)
    match a with
    | ⟨0, _⟩ => show win0_1.index t (0 : Fin 2) * 3072 + 1 * (1024 + 1 * d'.val) = 1024 + d'.val; omega
    | ⟨1, _⟩ => show win0_1.index t (1 : Fin 2) * 1024 + 1 * (0 + 1 * e'.val) = e'.val; omega
  · intro d'
    show V c main_v1 (((cfg0.win 2).blk t).view.emb (r0_4.emb (ix2 (0 : Fin 1) d'))) = V c main_v1 (ix2 (0 : Fin 1) (Cert.ProjSpec.col 1024 (by omega) d'))
    refine congrArg _ (funext fun a => Fin.ext ?_)
    match a with
    | ⟨0, _⟩ => show win0_2.index t (0 : Fin 2) * 1 + 1 * (0 + 1 * 0) = 0; omega
    | ⟨1, _⟩ => show win0_2.index t (1 : Fin 2) * 3072 + 1 * (1024 + 1 * d'.val) = 1024 + d'.val; omega

/-- An index of the array is in point t's block of window 4 iff each coordinate is in the block's range. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3_1).slice (win0_4.rect t)).set ↔ _
  rw [View.set_slice_whole, Rect.mem_set_unit]
  exact Iff.rfl

/-- The eight blocks of window 4 cover its array: row s is in the block of point s / 1024. -/
theorem cover4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, h3, h4, h5⟩ := idx_onto ⟨(i 0).val / 1024, by omega⟩
  have ht := h4
  have q0 : win0_4.index t (0 : Fin 2) = (i 0).val / 1024 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE K ARRAY after the region. -/
theorem final4 (c : Dev nD) :
    (dat0 V c).arrAt 4 cfg0.N = Gk (V c main_v2) (V c main_v0) (V c main_v1) :=
  (dat0 V c).arrAt_eq_of_cover 4 (Gk (V c main_v2) (V c main_v0) (V c main_v1)) (fun t _ => flushed_eq4 V c t) cover4

/-- WHAT POINT t WRITES BACK through window 5 is block t of the v part of the projection. -/
theorem flushed_eq5 (c : Dev nD) (t : Fin cfg0.N) :
    (dat0 V c).flushed 5 t = ((cfg0.win 5).blk t).view.read (Elt Ideal) (Gv (V c main_v2) (V c main_v0) (V c main_v1)) := by
  show (cfg0.win 5).cut (grid0.coords t) ((dat0 V c).after 5 t) = _
  rw [after0_5]
  unfold out0_5
  rw [View.canon_unit_zero hz2]
  simp only [View.ld_unit_zero (S := S1024x1024) hz2]
  obtain ⟨e0, e1, e2, e3, e4, e5, e6, e7, e8⟩ := idx_facts t
  have e40 : win0_4.index t (0 : Fin 2) = win0_3.index t (0 : Fin 2) := congrFun e6.1 0
  have e41 : win0_4.index t (1 : Fin 2) = win0_3.index t (1 : Fin 2) := congrFun e6.1 1
  have e50 : win0_5.index t (0 : Fin 2) = win0_3.index t (0 : Fin 2) := congrFun e6.2 0
  have e51 : win0_5.index t (1 : Fin 2) = win0_3.index t (1 : Fin 2) := congrFun e6.2 1
  funext j
  obtain ⟨r, d, rfl⟩ : ∃ (r : Fin 1024) (d : Fin 1024), j = ix2 r d := ⟨j 0, j 1, eq_ix2 j⟩
  have hr : r.val < 1024 := r.isLt
  have hd : d.val < 1024 := d.isLt
  let row : Fin 1024 → Fin 8192 := fun r' => ⟨win0_5.index t (0 : Fin 2) * 1024 + r'.val, by have := r'.isLt; omega⟩
  refine (Cert.KernelIdeal.ProjPayload.v_payload_apply _ _ _ r d).trans ?_
  have hE := entry_eq 2048 (by omega) (V c main_v2) (V c main_v0) (V c main_v1) (iblk0 V c 0 t)
    (View.ld (iblk0 V c 1 t) r0_5) (View.ld (iblk0 V c 2 t) r0_6) row ?_ ?_ ?_ r d
  · refine hE.trans ?_
    show Gv (V c main_v2) (V c main_v0) (V c main_v1) (ix2 (row r) d)
      = Gv (V c main_v2) (V c main_v0) (V c main_v1) (((cfg0.win 5).blk t).view.emb (ix2 r d))
    refine congrArg _ (funext fun a => Fin.ext ?_)
    match a with
    | ⟨0, _⟩ => show win0_5.index t (0 : Fin 2) * 1024 + r.val = win0_5.index t (0 : Fin 2) * 1024 + 1 * r.val; omega
    | ⟨1, _⟩ => show d.val = win0_5.index t (1 : Fin 2) * 1024 + 1 * d.val; omega
  · intro r' e'
    show V c main_v2 (((cfg0.win 0).blk t).view.emb (ix2 r' e')) = V c main_v2 (ix2 (row r') e')
    refine congrArg _ (funext fun a => Fin.ext ?_)
    match a with
    | ⟨0, _⟩ => show win0_0.index t (0 : Fin 2) * 1024 + 1 * r'.val = win0_5.index t (0 : Fin 2) * 1024 + r'.val; omega
    | ⟨1, _⟩ => show win0_0.index t (1 : Fin 2) * 1024 + 1 * e'.val = e'.val; omega
  · intro d' e'
    show V c main_v0 (((cfg0.win 1).blk t).view.emb (r0_5.emb (ix2 d' e'))) = V c main_v0 (ix2 (Cert.ProjSpec.col 2048 (by omega) d') e')
    refine congrArg _ (funext fun a => Fin.ext ?_)
    match a with
    | ⟨0, _⟩ => show win0_1.index t (0 : Fin 2) * 3072 + 1 * (2048 + 1 * d'.val) = 2048 + d'.val; omega
    | ⟨1, _⟩ => show win0_1.index t (1 : Fin 2) * 1024 + 1 * (0 + 1 * e'.val) = e'.val; omega
  · intro d'
    show V c main_v1 (((cfg0.win 2).blk t).view.emb (r0_6.emb (ix2 (0 : Fin 1) d'))) = V c main_v1 (ix2 (0 : Fin 1) (Cert.ProjSpec.col 2048 (by omega) d'))
    refine congrArg _ (funext fun a => Fin.ext ?_)
    match a with
    | ⟨0, _⟩ => show win0_2.index t (0 : Fin 2) * 1 + 1 * (0 + 1 * 0) = 0; omega
    | ⟨1, _⟩ => show win0_2.index t (1 : Fin 2) * 3072 + 1 * (2048 + 1 * d'.val) = 2048 + d'.val; omega

/-- An index of the array is in point t's block of window 5 iff each coordinate is in the block's range. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v3_2).slice (win0_5.rect t)).set ↔ _
  rw [View.set_slice_whole, Rect.mem_set_unit]
  exact Iff.rfl

/-- The eight blocks of window 5 cover its array: row s is in the block of point s / 1024. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, h3, h4, h5⟩ := idx_onto ⟨(i 0).val / 1024, by omega⟩
  have ht := h5
  have q0 : win0_5.index t (0 : Fin 2) = (i 0).val / 1024 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE V ARRAY after the region. -/
theorem final5 (c : Dev nD) :
    (dat0 V c).arrAt 5 cfg0.N = Gv (V c main_v2) (V c main_v0) (V c main_v1) :=
  (dat0 V c).arrAt_eq_of_cover 5 (Gv (V c main_v2) (V c main_v0) (V c main_v1)) (fun t _ => flushed_eq5 V c t) cover5

end Cert.KernelIdeal.ProjRegion

end
-- ==== Proof.Bridge.lean ====
import proofs.«100005_j60490319397308_2_alg».proof.Proof.Spec
import proofs.«100005_j60490319397308_2_alg».proof.Proof.ProjSpec
import Idealize.ShloMosaic.Lib.ValueIdx
import Idealize.ShloMosaic.Lib.Pipeline.Value
import Idealize.ShloMosaic.Lib.ValueLayout

/-
  The two-stage arrangement computes the specified attention.

  The first stage projects the rows of x flattened to [8192, 1024], one part of 1024 outputs at a time, and multiplies
  the query part by the factor 2^-5; each part is then seen again as [4, 2048, 1024]. Row b * 2048 + s of the flattened
  array is row (b, s) of x, and the bias seen as one row of 3072 is the bias, so the parts at offsets 0, 1024 and 2048
  are the specification's queries, keys and values at (b, s). The second stage's scores, inner products of scaled
  queries with keys, are the specification's scores with the factor on each query feature, which equal its scores.
-/

noncomputable section

namespace Cert.AttnBridge

open Idealize.ShloMosaic Idealize.ShloMosaic.ValueIdx Cert.AttnSpec Cert.ProjSpec

/-- Row (b, s) of x among the 8192 flattened rows. -/
def row (b : Fin 4) (s : Fin 2048) : Fin 8192 := ⟨b.val * 2048 + s.val, by have := b.isLt; have := s.isLt; omega⟩

/-- The [8192, 1024] array seen as [4, 2048, 1024] reads, at (b, s, e), entry e of row b * 2048 + s. -/
theorem unflatten_apply {α : Type} (y : Cert.ProjSpec.SR.Idx → α) (h3 : Cert.ProjSpec.SR.ShapeCasts Cert.AttnSpec.SX)
    (b : Fin 4) (s : Fin 2048) (e : Fin 1024) :
    shapeCast Cert.AttnSpec.SX y h3 (ix3 b s e) = y (ix2 (row b s) e) :=
  shapeCast_apply y h3 _ _ (by
    rw [Shape.rowMajor_val_two, Shape.rowMajor_val_three]
    rfl)

/-- The [4, 2048, 1024] array flattened to [8192, 1024] reads, at (b * 2048 + s, e), the entry at (b, s, e). -/
theorem flatten_apply {α : Type} (x : Cert.AttnSpec.SX.Idx → α) (h1 : Cert.AttnSpec.SX.ShapeCasts Cert.ProjSpec.SR)
    (b : Fin 4) (s : Fin 2048) (e : Fin 1024) :
    shapeCast Cert.ProjSpec.SR x h1 (ix2 (row b s) e) = x (ix3 b s e) :=
  shapeCast_apply x h1 _ _ (by
    rw [Shape.rowMajor_val_two, Shape.rowMajor_val_three]
    rfl)

theorem col_zero (d : Fin 1024) (h : 0 + 1024 ≤ 3072) : col 0 h d = part 0 d := Fin.ext (by
  show 0 + d.val = 0 * 1024 + d.val; omega)

theorem col_one (d : Fin 1024) (h : 1024 + 1024 ≤ 3072) : col 1024 h d = part 1 d := Fin.ext (by
  show 1024 + d.val = 1 * 1024 + d.val; omega)

theorem col_two (d : Fin 1024) (h : 2048 + 1024 ≤ 3072) : col 2048 h d = part 2 d := Fin.ext (by
  show 2048 + d.val = 2 * 1024 + d.val; omega)

/-- A part of the projection of the flattened rows, at row b * 2048 + s, is the projection of row (b, s). -/
theorem projPart_flat (x : FVec Ideal Cert.AttnSpec.SX .f32) (W : FVec Ideal Cert.AttnSpec.SW .f32) (bias : FVec Ideal Cert.AttnSpec.SB .f32)
    (h1 : Cert.AttnSpec.SX.ShapeCasts Cert.ProjSpec.SR) (h2 : Cert.AttnSpec.SB.ShapeCasts Cert.ProjSpec.SB2)
    (off : ℕ) (hoff : off + 1024 ≤ 3072) (b : Fin 4) (s : Fin 2048) (d : Fin 1024) :
    projPart off hoff (shapeCast Cert.ProjSpec.SR x h1) W (shapeCast Cert.ProjSpec.SB2 bias h2) (ix2 (row b s) d)
      = proj x W bias b s (col off hoff d) := by
  unfold projPart proj
  show (∑ e : Fin 1024, shapeCast Cert.ProjSpec.SR x h1 (ix2 (row b s) e) * W (ix2 (col off hoff d) e))
      + shapeCast Cert.ProjSpec.SB2 bias h2 (ix2 (0 : Fin 1) (col off hoff d)) = _
  rw [shapeCast_a_1a_apply]
  simp only [flatten_apply]

section Entries

variable (x : FVec Ideal Cert.AttnSpec.SX .f32) (W : FVec Ideal Cert.AttnSpec.SW .f32) (bias : FVec Ideal Cert.AttnSpec.SB .f32)
  (h1 : Cert.AttnSpec.SX.ShapeCasts Cert.ProjSpec.SR) (h2 : Cert.AttnSpec.SB.ShapeCasts Cert.ProjSpec.SB2)
  (h3 : Cert.ProjSpec.SR.ShapeCasts Cert.AttnSpec.SX)

/-- The scaled query part, seen as [4, 2048, 1024], at (b, s, e). -/
theorem query_entry (hoff : 0 + 1024 ≤ 3072) (b : Fin 4) (s : Fin 2048) (e : Fin 1024) :
    shapeCast Cert.AttnSpec.SX (fun i => Cert.ProjSpec.projPart 0 hoff (shapeCast Cert.ProjSpec.SR x h1) W
        (shapeCast Cert.ProjSpec.SB2 bias h2) i * Cert.AttnSpec.scale) h3 (ix3 b s e)
      = proj x W bias b s (part 0 e) * scale := by
  rw [unflatten_apply]
  show Cert.ProjSpec.projPart 0 hoff (shapeCast Cert.ProjSpec.SR x h1) W (shapeCast Cert.ProjSpec.SB2 bias h2) (ix2 (row b s) e)
      * scale = _
  rw [projPart_flat, col_zero]

/-- The key part, seen as [4, 2048, 1024], at (b, t, e). -/
theorem key_entry (hoff : 1024 + 1024 ≤ 3072) (b : Fin 4) (t : Fin 2048) (e : Fin 1024) :
    shapeCast Cert.AttnSpec.SX (Cert.ProjSpec.projPart 1024 hoff (shapeCast Cert.ProjSpec.SR x h1) W
        (shapeCast Cert.ProjSpec.SB2 bias h2)) h3 (ix3 b t e)
      = proj x W bias b t (part 1 e) := by
  rw [unflatten_apply, projPart_flat, col_one]

/-- The value part, seen as [4, 2048, 1024], at (b, t, d). -/
theorem value_entry (hoff : 2048 + 1024 ≤ 3072) (b : Fin 4) (t : Fin 2048) (d : Fin 1024) :
    shapeCast Cert.AttnSpec.SX (Cert.ProjSpec.projPart 2048 hoff (shapeCast Cert.ProjSpec.SR x h1) W
        (shapeCast Cert.ProjSpec.SB2 bias h2)) h3 (ix3 b t d)
      = proj x W bias b t (part 2 d) := by
  rw [unflatten_apply, projPart_flat, col_two]

end Entries

/-- Attention of the unscaled inner products of the scaled queries with the keys, over the values, all three taken
    from the projection of the flattened rows, is the specified result. -/
theorem bridge (x : FVec Ideal Cert.AttnSpec.SX .f32) (W : FVec Ideal Cert.AttnSpec.SW .f32) (bias : FVec Ideal Cert.AttnSpec.SB .f32)
    (h1 : Cert.AttnSpec.SX.ShapeCasts Cert.ProjSpec.SR) (h2 : Cert.AttnSpec.SB.ShapeCasts Cert.ProjSpec.SB2) (h3 : Cert.ProjSpec.SR.ShapeCasts Cert.AttnSpec.SX)
    (Q K Vv : Cert.AttnSpec.SX.Idx → EReal)
    (hQ : Q = shapeCast Cert.AttnSpec.SX (fun i => Cert.ProjSpec.projPart 0 (by omega) (shapeCast Cert.ProjSpec.SR x h1) W (shapeCast Cert.ProjSpec.SB2 bias h2) i * Cert.AttnSpec.scale) h3)
    (hK : K = shapeCast Cert.AttnSpec.SX (Cert.ProjSpec.projPart 1024 (by omega) (shapeCast Cert.ProjSpec.SR x h1) W (shapeCast Cert.ProjSpec.SB2 bias h2)) h3)
    (hV : Vv = shapeCast Cert.AttnSpec.SX (Cert.ProjSpec.projPart 2048 (by omega) (shapeCast Cert.ProjSpec.SR x h1) W (shapeCast Cert.ProjSpec.SB2 bias h2)) h3) :
    Cert.AttnSpec.attend (fun b s t => ∑ e : Fin 1024, Q (ix3 b s e) * K (ix3 b t e)) (fun b t d => Vv (ix3 b t d)) = Cert.AttnSpec.out x W bias := by
  have hs : (fun b s t => ∑ e : Fin 1024, Q (ix3 b s e) * K (ix3 b t e)) = scoreFolded x W bias := by
    funext b s t
    unfold scoreFolded
    refine Finset.sum_congr rfl fun e _ => ?_
    rw [hQ, hK, query_entry, key_entry]
  have hv : (fun b t d => Vv (ix3 b t d)) = fun b t d => proj x W bias b t (part 2 d) := by
    funext b t d
    rw [hV, value_entry]
  rw [hs, hv]
  exact attend_scoreFolded x W bias

end Cert.AttnBridge

end
-- ==== Proof.KernelValue.lean ====
/-
  The idealized kernel's result as a function of its three arguments, on the extended reals: single-head
  self-attention over the packed projection (Cert.AttnSpec.out).

  The result buffer at the end is the attention region's output array (KernelRun), which is the attention function of
  the three arrays that region finds (AttnRegion). Those are the projection region's three outputs reshaped from
  [8192, 1024] to [4, 2048, 1024] by the three host reshapes between the regions; the projection region's outputs are
  the three parts of the projection of the arrays IT finds (ProjRegion); and those are x flattened to [8192, 1024], the
  weights after a change of float format — the identity on the extended reals — and the bias as a row [1, 3072], by the
  three host operations before it. Put together (Bridge), with the factor 2^-5 moved from the queries onto the scores
  (Spec), this is the specification.
-/
import proofs.«100005_j60490319397308_2_alg».proof.Proof.KernelRun
import proofs.«100005_j60490319397308_2_alg».proof.Proof.AttnRegion
import proofs.«100005_j60490319397308_2_alg».proof.Proof.ProjRegion
import proofs.«100005_j60490319397308_2_alg».proof.Proof.Bridge
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! ## The host operations before the projection region -/

/-- The projection region finds x flattened to 8192 rows. -/
theorem V1_v2 (c : Dev nD) :
    (V1 m ρ c main_v2 : S8192x1024.Idx → EReal)
      = shapeCast S8192x1024 (m ((c : Thread nD τ).loc main_arg0)) shapeCasts_S4x2048x1024_S8192x1024 := by
  dsimp only [V1, W1, W0, hostOps0]
  after_results
  rfl

/-- It finds the weights after their change of float format: on the extended reals, the weights. -/
theorem V1_v0 (c : Dev nD) :
    (V1 m ρ c main_v0 : S3072x1024.Idx → EReal) = m ((c : Thread nD τ).loc main_arg1) := by
  dsimp only [V1, W1, W0, hostOps0]
  after_results
  rfl

/-- It finds the bias as one row of 3072. -/
theorem V1_v1 (c : Dev nD) :
    (V1 m ρ c main_v1 : S1x3072.Idx → EReal)
      = shapeCast S1x3072 (m ((c : Thread nD τ).loc main_arg2)) shapeCasts_S3072_S1x3072 := by
  dsimp only [V1, W1, W0, hostOps0]
  after_results
  rfl

/-! ## The host reshapes between the regions -/

theorem V3_v4 (c : Dev nD) :
    (V3 m ρ c main_v4 : S4x2048x1024.Idx → EReal)
      = shapeCast S4x2048x1024 (W2 m ρ c (Proc.devRef .tc main_v3_0)) shapeCasts_S8192x1024_S4x2048x1024 := by
  dsimp only [V3, W3, hostOps1]
  after_results
  rfl

theorem V3_v5 (c : Dev nD) :
    (V3 m ρ c main_v5 : S4x2048x1024.Idx → EReal)
      = shapeCast S4x2048x1024 (W2 m ρ c (Proc.devRef .tc main_v3_1)) shapeCasts_S8192x1024_S4x2048x1024 := by
  dsimp only [V3, W3, hostOps1]
  after_results
  rfl

theorem V3_v6 (c : Dev nD) :
    (V3 m ρ c main_v6 : S4x2048x1024.Idx → EReal)
      = shapeCast S4x2048x1024 (W2 m ρ c (Proc.devRef .tc main_v3_2)) shapeCasts_S8192x1024_S4x2048x1024 := by
  dsimp only [V3, W3, hostOps1]
  after_results
  rfl

/-! ## The projection region's outputs at its exit -/

theorem W2_q (c : Dev nD) :
    W2 m ρ c (Proc.devRef .tc main_v3_0)
      = Cert.KernelIdeal.ProjRegion.Gq (V1 m ρ c main_v2) (V1 m ρ c main_v0) (V1 m ρ c main_v1) :=
  (W2_arr m ρ c 3).trans (Cert.KernelIdeal.ProjRegion.final3 (V1 m ρ) c)

theorem W2_k (c : Dev nD) :
    W2 m ρ c (Proc.devRef .tc main_v3_1)
      = Cert.KernelIdeal.ProjRegion.Gk (V1 m ρ c main_v2) (V1 m ρ c main_v0) (V1 m ρ c main_v1) :=
  (W2_arr m ρ c 4).trans (Cert.KernelIdeal.ProjRegion.final4 (V1 m ρ) c)

theorem W2_v (c : Dev nD) :
    W2 m ρ c (Proc.devRef .tc main_v3_2)
      = Cert.KernelIdeal.ProjRegion.Gv (V1 m ρ c main_v2) (V1 m ρ c main_v0) (V1 m ρ c main_v1) :=
  (W2_arr m ρ c 5).trans (Cert.KernelIdeal.ProjRegion.final5 (V1 m ρ) c)

/-! ## The result -/

/-- The result buffer at the last boundary is the specification of the three arguments. -/
theorem result (c : Dev nD) :
    W4 m ρ c (Proc.devRef .tc main_v7)
      = Cert.AttnSpec.out (m ((c : Thread nD τ).loc main_arg0)) (m ((c : Thread nD τ).loc main_arg1)) (m ((c : Thread nD τ).loc main_arg2)) := by
  rw [Cert.KernelIdeal.KRun.W4_result, Cert.KernelIdeal.AttnRegion.final]
  unfold Cert.KernelIdeal.AttnRegion.G
  refine Cert.AttnBridge.bridge (m ((c : Thread nD τ).loc main_arg0)) (m ((c : Thread nD τ).loc main_arg1)) (m ((c : Thread nD τ).loc main_arg2))
    shapeCasts_S4x2048x1024_S8192x1024 shapeCasts_S3072_S1x3072 shapeCasts_S8192x1024_S4x2048x1024 _ _ _ ?_ ?_ ?_
  · rw [V3_v4, W2_q, V1_v2, V1_v0, V1_v1]; rfl
  · rw [V3_v5, W2_k, V1_v2, V1_v0, V1_v1]; rfl
  · rw [V3_v6, W2_v, V1_v2, V1_v0, V1_v1]; rfl

/-- THE KERNEL'S RUN: every weakly fair execution ends, nothing faulting, with the result array at the specification
    of the arguments and the arguments as launched. -/
theorem run : θ_run defs (onTc (τ := τ) (main (F := Ideal))) ⟨m, fun _ => 0, ρ⟩ (fun r => ∀ c : Dev nD,
      r.2.mem ((c.tc : Thread nD τ).loc main_v7)
        = Cert.AttnSpec.out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (Cert.KernelIdeal.KRun.run_boundary m ρ)

end Cert.KernelIdeal.KValue

end
-- ==== Proof.RefValue.lean ====
import proofs.«100005_j60490319397308_2_alg».proof.Proof.Gen.ReferenceIdeal.Read
import proofs.«100005_j60490319397308_2_alg».proof.Proof.Spec

/-
  The reference program computes the specified attention, read one index at a time.

  Each stage of the reference is read at literal coordinates: the projection x·Wᵀ + bias at (b, s, f); its three
  consecutive parts of 1024 features, the queries, keys and values (the reshape to [4, 2048, 3, 1024] puts feature
  j * 1024 + d at (j, d)); the scaled scores; the maximum of a row of scores, a fold of max from -∞ over the 2048 key
  positions (a further maximum with -∞ changes nothing); the exponentials of the scores less that maximum; their sum
  over the row, an add-reduce from the zero word; the quotient; and the weighted sum of the values.
-/

noncomputable section

namespace Cert.ReferenceIdeal.RefValue

open Cert.ReferenceIdeal Cert.ReferenceIdeal.Gen Cert.ReferenceIdeal.Read Idealize.ShloMosaic Idealize.ShloMosaic.ValueIdx Cert.AttnSpec

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-- The projected output at (b, s, f): the inner product of row (b, s) of x with row f of W, plus the bias at f. -/
theorem proj_eq (b : Fin 4) (s : Fin 2048) (f : Fin 3072) :
    val_main_v3 (F := Ideal) x0 x1 x2 (ix3 b s f) = proj x0 x1 x2 b s f := by
  rw [val_main_v3_apply, val_main_v0_apply, val_main_v2_apply, val_main_v1_apply]
  have el : ∀ k : Fin 1024, lidx_main_v0 (ix3 b s f) k = ix3 b s k := fun k => funext fun a => Fin.ext (by
    match a with | ⟨0, _⟩ => rfl | ⟨1, _⟩ => rfl | ⟨2, _⟩ => rfl)
  have er : ∀ k : Fin 1024, ridx_main_v0 (ix3 b s f) k = ix2 f k := fun k => funext fun a => Fin.ext (by
    match a with | ⟨0, _⟩ => rfl | ⟨1, _⟩ => rfl)
  have eb : idx_main_v1 (idx_main_v2 (ix3 b s f)) = ix1 f := funext fun a => Fin.ext (by
    match a with | ⟨0, _⟩ => rfl)
  simp only [el, er, eb, Ideal.addf_def]
  rfl

/-- Position (b, s, d) of a [4, 2048, 1024] array is position (b, s, 0, d) of the same array seen as [4, 2048, 1, 1024]. -/
theorem idx_v6_ix3 (b : Fin 4) (s : Fin 2048) (d : Fin 1024) :
    idx_main_v6 (ix3 b s d) = ix4 b s (0 : Fin 1) d := funext fun a => Fin.ext (by
  have hb := b.isLt; have hs := s.isLt; have hd := d.isLt
  match a with
  | ⟨0, _⟩ => show ((b.val * 2048 + s.val) * 1024 + d.val) / 2097152 = b.val; omega
  | ⟨1, _⟩ => show ((b.val * 2048 + s.val) * 1024 + d.val) / 1024 % 2048 = s.val; omega
  | ⟨2, _⟩ => rfl
  | ⟨3, _⟩ => show ((b.val * 2048 + s.val) * 1024 + d.val) % 1024 = d.val; omega)

theorem idx_v8_ix3 (b : Fin 4) (s : Fin 2048) (d : Fin 1024) :
    idx_main_v8 (ix3 b s d) = ix4 b s (0 : Fin 1) d := idx_v6_ix3 b s d

theorem idx_v10_ix3 (b : Fin 4) (s : Fin 2048) (d : Fin 1024) :
    idx_main_v10 (ix3 b s d) = ix4 b s (0 : Fin 1) d := idx_v6_ix3 b s d

theorem idx_v5_ix4 (b : Fin 4) (s : Fin 2048) (d : Fin 1024) :
    idx_main_v5 (ix4 b s (0 : Fin 1) d) = ix4 b s (0 : Fin 3) d := funext fun a => Fin.ext (by
  match a with | ⟨0, _⟩ => rfl | ⟨1, _⟩ => rfl | ⟨2, _⟩ => rfl | ⟨3, _⟩ => rfl)

theorem idx_v7_ix4 (b : Fin 4) (s : Fin 2048) (d : Fin 1024) :
    idx_main_v7 (ix4 b s (0 : Fin 1) d) = ix4 b s (1 : Fin 3) d := funext fun a => Fin.ext (by
  match a with | ⟨0, _⟩ => rfl | ⟨1, _⟩ => rfl | ⟨2, _⟩ => rfl | ⟨3, _⟩ => rfl)

theorem idx_v9_ix4 (b : Fin 4) (s : Fin 2048) (d : Fin 1024) :
    idx_main_v9 (ix4 b s (0 : Fin 1) d) = ix4 b s (2 : Fin 3) d := funext fun a => Fin.ext (by
  match a with | ⟨0, _⟩ => rfl | ⟨1, _⟩ => rfl | ⟨2, _⟩ => rfl | ⟨3, _⟩ => rfl)

/-- Position (b, s, j, d) of the [4, 2048, 3, 1024] view is position (b, s, j * 1024 + d) of the [4, 2048, 3072] array. -/
theorem idx_v4_ix4 (b : Fin 4) (s : Fin 2048) (j : Fin 3) (d : Fin 1024) :
    idx_main_v4 (ix4 b s j d) = ix3 b s (part j d) := funext fun a => Fin.ext (by
  have hb := b.isLt; have hs := s.isLt; have hj := j.isLt; have hd := d.isLt
  match a with
  | ⟨0, _⟩ => show (((b.val * 2048 + s.val) * 3 + j.val) * 1024 + d.val) / 6291456 = b.val; omega
  | ⟨1, _⟩ => show (((b.val * 2048 + s.val) * 3 + j.val) * 1024 + d.val) / 3072 % 2048 = s.val; omega
  | ⟨2, _⟩ => show (((b.val * 2048 + s.val) * 3 + j.val) * 1024 + d.val) % 3072 = j.val * 1024 + d.val; omega)

/-- The queries: part 0 of the projection. -/
theorem q_eq (b : Fin 4) (s : Fin 2048) (d : Fin 1024) :
    val_main_v6 (F := Ideal) x0 x1 x2 (ix3 b s d) = proj x0 x1 x2 b s (part 0 d) := by
  rw [val_main_v6_apply, idx_v6_ix3, val_main_v5_apply, idx_v5_ix4, val_main_v4_apply, idx_v4_ix4, proj_eq]

/-- The keys: part 1 of the projection. -/
theorem k_eq (b : Fin 4) (s : Fin 2048) (d : Fin 1024) :
    val_main_v8 (F := Ideal) x0 x1 x2 (ix3 b s d) = proj x0 x1 x2 b s (part 1 d) := by
  rw [val_main_v8_apply, idx_v8_ix3, val_main_v7_apply, idx_v7_ix4, val_main_v4_apply, idx_v4_ix4, proj_eq]

/-- The values: part 2 of the projection. -/
theorem v_eq (b : Fin 4) (s : Fin 2048) (d : Fin 1024) :
    val_main_v10 (F := Ideal) x0 x1 x2 (ix3 b s d) = proj x0 x1 x2 b s (part 2 d) := by
  rw [val_main_v10_apply, idx_v10_ix3, val_main_v9_apply, idx_v9_ix4, val_main_v4_apply, idx_v4_ix4, proj_eq]

/-- The scaled score of query position s against key position t. -/
theorem score_eq (b : Fin 4) (s t : Fin 2048) :
    val_main_v13 (F := Ideal) x0 x1 x2 (ix3 b s t) = score x0 x1 x2 b s t := by
  rw [val_main_v13_apply, val_main_v12_apply, val_main_cst_apply, val_main_v11_apply]
  have el : ∀ k : Fin 1024, lidx_main_v11 (ix3 b s t) k = ix3 b s k := fun k => funext fun a => Fin.ext (by
    match a with | ⟨0, _⟩ => rfl | ⟨1, _⟩ => rfl | ⟨2, _⟩ => rfl)
  have er : ∀ k : Fin 1024, ridx_main_v11 (ix3 b s t) k = ix3 b t k := fun k => funext fun a => Fin.ext (by
    match a with | ⟨0, _⟩ => rfl | ⟨1, _⟩ => rfl | ⟨2, _⟩ => rfl)
  simp only [el, er, q_eq, k_eq, Ideal.mulf_def, Ideal.ofBits_def]
  rfl

theorem negInf_max (y : EReal) : max negInf y = y := by
  unfold negInf; simp [Ideal.ofBits, Ideal.ieee]

theorem reduces_d2 : S4x2048x2048.Reduces [2] S4x2048 := by decide

/-- The reduced index (b, s) with coordinate k put back on the last axis is (b, s, k). -/
theorem lift_ix2 (b : Fin 4) (s : Fin 2048) (k : Fin (S4x2048x2048.size 2)) :
    reduces_d2.lift (ix2 b s) k = ix3 b s (⟨k.val, k.isLt⟩ : Fin 2048) := by
  funext c; apply Fin.ext
  fin_cases c <;> rfl

/-- The maximum of row (b, s) of the scores. -/
theorem rowMax_eq (b : Fin 4) (s : Fin 2048) :
    val_main_v16 (F := Ideal) x0 x1 x2 (ix2 b s) = rowMax (score x0 x1 x2 b s) := by
  rw [val_main_v16_apply, val_main_v15_apply, val_main_cst_1_apply]
  unfold val_main_v14
  rw [Host.reduce_eq_fold_single FloatOps.maximumf _ _ reducesTo_S4x2048x2048_S4x2048_d2 reduces_d2 h_S_]
  rw [val_main_cst_0_apply]
  have hf : (val_main_v13 (F := Ideal) x0 x1 x2 ∘ reduces_d2.lift (ix2 b s)) = fun k : Fin 2048 => score x0 x1 x2 b s k :=
    funext fun k => by
      show val_main_v13 (F := Ideal) x0 x1 x2 (reduces_d2.lift (ix2 b s) k) = _
      rw [lift_ix2, score_eq]
      rfl
  rw [hf]
  simp only [Ideal.maximumf_def, Ideal.ofBits_def]
  exact negInf_max _

/-- A score less its row's maximum, exponentiated. -/
theorem expShift_eq (b : Fin 4) (s t : Fin 2048) :
    val_main_v20 (F := Ideal) x0 x1 x2 (ix3 b s t)
      = Ideal.exp (score x0 x1 x2 b s t - rowMax (score x0 x1 x2 b s)) := by
  rw [val_main_v20_apply, val_main_v19_apply, val_main_v18_apply, val_main_v17_apply]
  have e : idx_main_v17 (idx_main_v18 (ix3 b s t)) = ix2 b s := funext fun a => Fin.ext (by
    match a with | ⟨0, _⟩ => rfl | ⟨1, _⟩ => rfl)
  rw [e, rowMax_eq, score_eq]
  rfl

/-- The sum of a row's exponentials: the add-reduce starts from the zero word, which is 0. -/
theorem rowSum_eq (b : Fin 4) (s : Fin 2048) :
    val_main_v21 (F := Ideal) x0 x1 x2 (ix2 b s)
      = ∑ u : Fin 2048, Ideal.exp (score x0 x1 x2 b s u - rowMax (score x0 x1 x2 b s)) := by
  rw [val_main_v21_apply, val_main_cst_2_apply]
  have e : ∀ k : Fin 2048, idx_main_v21 (ix2 b s) k = ix3 b s k := fun k => funext fun a => Fin.ext (by
    match a with | ⟨0, _⟩ => rfl | ⟨1, _⟩ => rfl | ⟨2, _⟩ => rfl)
  simp only [e, expShift_eq, Ideal.ofBits_def, Ideal.ofBits_zero_f32, zero_add]

/-- The weight of key position t in row (b, s). -/
theorem weight_eq (b : Fin 4) (s t : Fin 2048) :
    val_main_v24 (F := Ideal) x0 x1 x2 (ix3 b s t)
      = Ideal.div (Ideal.exp (score x0 x1 x2 b s t - rowMax (score x0 x1 x2 b s)))
          (∑ u : Fin 2048, Ideal.exp (score x0 x1 x2 b s u - rowMax (score x0 x1 x2 b s))) := by
  rw [val_main_v24_apply, val_main_v23_apply, val_main_v22_apply]
  have e : idx_main_v22 (idx_main_v23 (ix3 b s t)) = ix2 b s := funext fun a => Fin.ext (by
    match a with | ⟨0, _⟩ => rfl | ⟨1, _⟩ => rfl)
  rw [e, rowSum_eq, expShift_eq]
  rfl

/-- The result at (b, s, d): the weights of row (b, s) applied to feature d of the values. -/
theorem out_eq (b : Fin 4) (s : Fin 2048) (d : Fin 1024) :
    val_main_v25 (F := Ideal) x0 x1 x2 (ix3 b s d)
      = attendRow (score x0 x1 x2 b s) (fun t => proj x0 x1 x2 b t (part 2 d)) := by
  rw [val_main_v25_apply]
  have el : ∀ k : Fin 2048, lidx_main_v25 (ix3 b s d) k = ix3 b s k := fun k => funext fun a => Fin.ext (by
    match a with | ⟨0, _⟩ => rfl | ⟨1, _⟩ => rfl | ⟨2, _⟩ => rfl)
  have er : ∀ k : Fin 2048, ridx_main_v25 (ix3 b s d) k = ix3 b k d := fun k => funext fun a => Fin.ext (by
    match a with | ⟨0, _⟩ => rfl | ⟨1, _⟩ => rfl | ⟨2, _⟩ => rfl)
  simp only [el, er, weight_eq, v_eq]
  rfl

/-- The reference program's result is the specification's, as a function of the three arguments. -/
theorem result_eq (x0 : (⟨Cert.ReferenceIdeal.S4x2048x1024, .f32⟩ : BufTy).Contents (Elt Ideal)) (x1 : (⟨Cert.ReferenceIdeal.S3072x1024, .f32⟩ : BufTy).Contents (Elt Ideal)) (x2 : (⟨Cert.ReferenceIdeal.S3072, .f32⟩ : BufTy).Contents (Elt Ideal)) :
    Cert.ReferenceIdeal.Read.val_main_v25 (F := Ideal) x0 x1 x2 = Cert.AttnSpec.out x0 x1 x2 := by
  funext i
  obtain ⟨b, s, d, rfl⟩ : ∃ (b : Fin 4) (s : Fin 2048) (d : Fin 1024), i = ValueIdx.ix3 b s d :=
    ⟨i 0, i 1, i 2, ValueIdx.eq_ix3 i⟩
  rw [out_eq]
  rfl

end Cert.ReferenceIdeal.RefValue

end
-- ==== Proof.lean ====
/-
  Single-head self-attention over a packed projection: the Pallas kernel against its jnp reference, equal on the extended reals.

  Both programs take x : [4, 2048, 1024], packed weights W : [3072, 1024] and a packed bias : [3072], project every
  position of x onto queries, keys and values (three consecutive parts of 1024 among the 3072 outputs), score each
  query against the keys of its batch element with the factor 2^-5 = 1024^(-1/2), turn each row of scores into weights
  by a softmax (maximum subtracted, exponential, divided by the row's sum) and return the weighted sums of the values.

  The reference does this with whole-array operations. The kernel does it in two regions: a projection region over
  blocks of 1024 flattened rows, which folds the factor 2^-5 into the queries, and an attention region over (batch
  element, block of 512 queries) that holds all keys and values of the batch element, so one softmax per row suffices.
  On the extended reals the changes of float format are the identity, a matrix unit's product into a zero accumulator
  and the host's contraction are the same sum, and the kernel's and the host's reductions are the same sum and the same
  maximum. The one law between the two sides is that the nonnegative real 2^-5 can be moved from each query feature
  onto the inner product; it holds on the extended reals whatever infinities the terms are, so the precondition (finite
  inputs) is not used by the value claim.

  Spec states the function; KernelValue shows the kernel's result array is it, RefValue that the reference's is; the
  frames of the two kernel programs are the generated ones, the reference's frame is its run with the result dropped,
  and the ideal pass rewrote nothing, so the preservation claim is trivially true.
-/
import proofs.«100005_j60490319397308_2_alg».proof.Defs
import proofs.«100005_j60490319397308_2_alg».proof.Proof.Gen.Kernel
import proofs.«100005_j60490319397308_2_alg».proof.Proof.Gen.Kernel.Skeleton
import proofs.«100005_j60490319397308_2_alg».proof.Proof.Gen.Kernel.Launch
import proofs.«100005_j60490319397308_2_alg».proof.Proof.Gen.Kernel.Points
import proofs.«100005_j60490319397308_2_alg».proof.Proof.Gen.Kernel.Frame
import proofs.«100005_j60490319397308_2_alg».proof.Proof.Gen.KernelIdeal
import proofs.«100005_j60490319397308_2_alg».proof.Proof.Gen.KernelIdeal.Skeleton
import proofs.«100005_j60490319397308_2_alg».proof.Proof.Gen.KernelIdeal.Launch
import proofs.«100005_j60490319397308_2_alg».proof.Proof.Gen.KernelIdeal.Points
import proofs.«100005_j60490319397308_2_alg».proof.Proof.Gen.KernelIdeal.Frame
import proofs.«100005_j60490319397308_2_alg».proof.Proof.Gen.ReferenceIdeal
import proofs.«100005_j60490319397308_2_alg».proof.Proof.Gen.ReferenceIdeal.Run
import proofs.«100005_j60490319397308_2_alg».proof.Proof.Gen.ReferenceIdeal.Read
import proofs.«100005_j60490319397308_2_alg».proof.Proof.Gen.Pre_finite_inputs
import proofs.«100005_j60490319397308_2_alg».proof.Proof.KernelValue
import proofs.«100005_j60490319397308_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both idealized programs end with the result array at the attention
    function of the arguments: the kernel by its two regions (KernelValue), the reference by its whole-array
    operations (RefValue). -/
theorem algebraic : Cert.algebraic_KernelIdeal_ReferenceIdeal := by
  intro m ρ m' ρ' _ hagree
  refine ⟨fun c => Cert.AttnSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
